-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x7168 : Shape := ⟨3, ![4, 8, 7168]⟩
abbrev S18432x7168 : Shape := ⟨2, ![18432, 7168]⟩
abbrev S144x56 : Shape := ⟨2, ![144, 56]⟩
abbrev S_ : Shape := ⟨0, ![]⟩

class Facts : Prop where
  bcast_S_S4x8x7168 : S_.BroadcastsInDim S4x8x7168 (![] : Fin 0 → Fin S4x8x7168.rank)
  reducesTo_S4x8x7168_S_d0_1_2 : S4x8x7168.ReducesTo [0, 1, 2] S_
  h_S_ : 0 < S_.numel
  bcast_S_S18432x7168 : S_.BroadcastsInDim S18432x7168 (![] : Fin 0 → Fin S18432x7168.rank)
  reducesTo_S18432x7168_S_d0_1 : S18432x7168.ReducesTo [0, 1] S_
  bcast_S_S144x56 : S_.BroadcastsInDim S144x56 (![] : Fin 0 → Fin S144x56.rank)
  reducesTo_S144x56_S_d0_1 : S144x56.ReducesTo [0, 1] S_

variable [Facts]

def fn {F : FTy → Type} [FloatOps F] (main_arg0 : FVec F S4x8x7168 .f32) (main_arg1 : FVec F S18432x7168 .f32) (main_arg2 : FVec F S144x56 .f32) : IVec S_ 1 :=
  let main_v0 : FVec F S4x8x7168 .f32 := Host.absf main_arg0
  let main_cst : FVec F S_ .f32 := constant S_ .f32 0x7F800000#32
  let main_v1 : FVec F S4x8x7168 .f32 := broadcastInDim S4x8x7168 ![] bcast_S_S4x8x7168 main_cst
  let main_v2 : IVec S4x8x7168 1 := cmpf .olt main_v0 main_v1
  let main_c : IVec S_ 1 := constantI S_ 1 1#1
  let main_v3 : IVec S_ 1 := (fun x v => Host.reduce IntOp.andi x v reducesTo_S4x8x7168_S_d0_1_2 h_S_) main_v2 main_c
  let main_v4 : FVec F S18432x7168 .f32 := Host.absf main_arg1
  let main_cst_0 : FVec F S_ .f32 := constant S_ .f32 0x7F800000#32
  let main_v5 : FVec F S18432x7168 .f32 := broadcastInDim S18432x7168 ![] bcast_S_S18432x7168 main_cst_0
  let main_v6 : IVec S18432x7168 1 := cmpf .olt main_v4 main_v5
  let main_c_1 : IVec S_ 1 := constantI S_ 1 1#1
  let main_v7 : IVec S_ 1 := (fun x v => Host.reduce IntOp.andi x v reducesTo_S18432x7168_S_d0_1 h_S_) main_v6 main_c_1
  let main_v8 : IVec S_ 1 := andi main_v3 main_v7
  let main_v9 : FVec F S144x56 .f32 := Host.absf main_arg2
  let main_cst_2 : FVec F S_ .f32 := constant S_ .f32 0x7F800000#32
  let main_v10 : FVec F S144x56 .f32 := broadcastInDim S144x56 ![] bcast_S_S144x56 main_cst_2
  let main_v11 : IVec S144x56 1 := cmpf .olt main_v9 main_v10
  let main_c_3 : IVec S_ 1 := constantI S_ 1 1#1
  let main_v12 : IVec S_ 1 := (fun x v => Host.reduce IntOp.andi x v reducesTo_S144x56_S_d0_1 h_S_) main_v11 main_c_3
  let main_v13 : IVec S_ 1 := andi main_v8 main_v12
  main_v13
-- ==== Kernel.lean ====
abbrev S4x8x7168 : Shape := ⟨3, ![4, 8, 7168]⟩
abbrev S18432x7168 : Shape := ⟨2, ![18432, 7168]⟩
abbrev S144x56 : Shape := ⟨2, ![144, 56]⟩
abbrev S32x7168 : Shape := ⟨2, ![32, 7168]⟩
abbrev S144x128x56 : Shape := ⟨3, ![144, 128, 56]⟩
abbrev S18432x56 : Shape := ⟨2, ![18432, 56]⟩
abbrev S32x18432 : Shape := ⟨2, ![32, 18432]⟩
abbrev S512x7168 : Shape := ⟨2, ![512, 7168]⟩
abbrev S512x56 : Shape := ⟨2, ![512, 56]⟩
abbrev S32x512 : Shape := ⟨2, ![32, 512]⟩
abbrev S512x128 : Shape := ⟨2, ![512, 128]⟩
abbrev S32x128 : Shape := ⟨2, ![32, 128]⟩
abbrev S512x1 : Shape := ⟨2, ![512, 1]⟩
abbrev S4x8x18432 : Shape := ⟨3, ![4, 8, 18432]⟩

abbrev nBuf : Space → Nat
  | .hbm => 9
  | .vmem => 7
  | .smem => 0
  | _ => 0

abbrev bufTy : (tb : Table) → Fin (tcTables nBuf tb) → BufTy
  | .hbm, ⟨0, _⟩ => ⟨S4x8x7168, .f32⟩
  | .hbm, ⟨1, _⟩ => ⟨S18432x7168, .f32⟩
  | .hbm, ⟨2, _⟩ => ⟨S144x56, .f32⟩
  | .hbm, ⟨3, _⟩ => ⟨S32x7168, .f32⟩
  | .hbm, ⟨4, _⟩ => ⟨S32x7168, .bf16⟩
  | .hbm, ⟨5, _⟩ => ⟨S144x128x56, .f32⟩
  | .hbm, ⟨6, _⟩ => ⟨S18432x56, .f32⟩
  | .hbm, ⟨7, _⟩ => ⟨S32x18432, .f32⟩
  | .hbm, ⟨8, _⟩ => ⟨S4x8x18432, .f32⟩
  | .local _ .vmem, ⟨0, _⟩ => ⟨S32x7168, .bf16⟩
  | .local _ .vmem, ⟨1, _⟩ => ⟨S512x7168, .f32⟩
  | .local _ .vmem, ⟨2, _⟩ => ⟨S512x7168, .f32⟩
  | .local _ .vmem, ⟨3, _⟩ => ⟨S512x56, .f32⟩
  | .local _ .vmem, ⟨4, _⟩ => ⟨S512x56, .f32⟩
  | .local _ .vmem, ⟨5, _⟩ => ⟨S32x512, .f32⟩
  | .local _ .vmem, ⟨6, _⟩ => ⟨S32x512, .f32⟩
  | _, _ => ⟨S4x8x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8x7168_S32x7168 : S4x8x7168.ShapeCasts S32x7168
  bitsLt_bf16_f32 : FTy.bits .bf16 < FTy.bits .f32
  bcast_S144x56_S144x128x56_0_2 : S144x56.BroadcastsInDim S144x128x56 (![0, 2] : Fin 2 → Fin S144x128x56.rank)
  shapeCasts_S144x128x56_S18432x56 : S144x128x56.ShapeCasts S18432x56
  inb_S512x56_S512x56_0_0 : ∀ a, (![0, 0] : Fin 2 → Nat) a + S512x56.size a ≤ S512x56.size a
  h_S512x56 : 0 < S512x56.numel
  shapeCasts_S512x56_S512x56 : S512x56.ShapeCasts S512x56
  inb_S512x7168_S512x128_0_0 : ∀ a, (![0, 0] : Fin 2 → Nat) a + S512x128.size a ≤ S512x7168.size a
  h_S512x128 : 0 < S512x128.numel
  inb_S32x7168_S32x128_0_0 : ∀ a, (![0, 0] : Fin 2 → Nat) a + S32x128.size a ≤ S32x7168.size a
  h_S32x128 : 0 < S32x128.numel
  shapeCasts_S32x128_S32x128 : S32x128.ShapeCasts S32x128
  slices_S512x56_o0_0_S512x1 : S512x56.Slices ![0, 0] S512x1
  broadcasts_S512x1_S512x128 : S512x1.Broadcasts S512x128
  inb_S512x7168_S512x128_0_128 : ∀ a, (![0, 128] : Fin 2 → Nat) a + S512x128.size a ≤ S512x7168.size a
  inb_S32x7168_S32x128_0_128 : ∀ a, (![0, 128] : Fin 2 → Nat) a + S32x128.size a ≤ S32x7168.size a
  slices_S512x56_o0_1_S512x1 : S512x56.Slices ![0, 1] S512x1
  inb_S512x7168_S512x128_0_256 : ∀ a, (![0, 256] : Fin 2 → Nat) a + S512x128.size a ≤ S512x7168.size a
  inb_S32x7168_S32x128_0_256 : ∀ a, (![0, 256] : Fin 2 → Nat) a + S32x128.size a ≤ S32x7168.size a
  slices_S512x56_o0_2_S512x1 : S512x56.Slices ![0, 2] S512x1
  inb_S512x7168_S512x128_0_384 : ∀ a, (![0, 384] : Fin 2 → Nat) a + S512x128.size a ≤ S512x7168.size a
  inb_S32x7168_S32x128_0_384 : ∀ a, (![0, 384] : Fin 2 → Nat) a + S32x128.size a ≤ S32x7168.size a
  slices_S512x56_o0_3_S512x1 : S512x56.Slices ![0, 3] S512x1
  inb_S512x7168_S512x128_0_512 : ∀ a, (![0, 512] : Fin 2 → Nat) a + S512x128.size a ≤ S512x7168.size a
  inb_S32x7168_S32x128_0_512 : ∀ a, (![0, 512] : Fin 2 → Nat) a + S32x128.size a ≤ S32x7168.size a
  slices_S512x56_o0_4_S512x1 : S512x56.Slices ![0, 4] S512x1
  inb_S512x7168_S512x128_0_640 : ∀ a, (![0, 640] : Fin 2 → Nat) a + S512x128.size a ≤ S512x7168.size a
  inb_S32x7168_S32x128_0_640 : ∀ a, (![0, 640] : Fin 2 → Nat) a + S32x128.size a ≤ S32x7168.size a
  slices_S512x56_o0_5_S512x1 : S512x56.Slices ![0, 5] S512x1
  inb_S512x7168_S512x128_0_768 : ∀ a, (![0, 768] : Fin 2 → Nat) a + S512x128.size a ≤ S512x7168.size a
  inb_S32x7168_S32x128_0_768 : ∀ a, (![0, 768] : Fin 2 → Nat) a + S32x128.size a ≤ S32x7168.size a
  slices_S512x56_o0_6_S512x1 : S512x56.Slices ![0, 6] S512x1
  inb_S512x7168_S512x128_0_896 : ∀ a, (![0, 896] : Fin 2 → Nat) a + S512x128.size a ≤ S512x7168.size a
  inb_S32x7168_S32x128_0_896 : ∀ a, (![0, 896] : Fin 2 → Nat) a + S32x128.size a ≤ S32x7168.size a
  slices_S512x56_o0_7_S512x1 : S512x56.Slices ![0, 7] S512x1
  inb_S512x7168_S512x128_0_1024 : ∀ a, (![0, 1024] : Fin 2 → Nat) a + S512x128.size a ≤ S512x7168.size a
  inb_S32x7168_S32x128_0_1024 : ∀ a, (![0, 1024] : Fin 2 → Nat) a + S32x128.size a ≤ S32x7168.size a
  slices_S512x56_o0_8_S512x1 : S512x56.Slices ![0, 8] S512x1
  inb_S512x7168_S512x128_0_1152 : ∀ a, (![0, 1152] : Fin 2 → Nat) a + S512x128.size a ≤ S512x7168.size a
  inb_S32x7168_S32x128_0_1152 : ∀ a, (![0, 1152] : Fin 2 → Nat) a + S32x128.size a ≤ S32x7168.size a
  slices_S512x56_o0_9_S512x1 : S512x56.Slices ![0, 9] S512x1
  inb_S512x7168_S512x128_0_1280 : ∀ a, (![0, 1280] : Fin 2 → Nat) a + S512x128.size a ≤ S512x7168.size a
  inb_S32x7168_S32x128_0_1280 : ∀ a, (![0, 1280] : Fin 2 → Nat) a + S32x128.size a ≤ S32x7168.size a
  slices_S512x56_o0_10_S512x1 : S512x56.Slices ![0, 10] S512x1
  inb_S512x7168_S512x128_0_1408 : ∀ a, (![0, 1408] : Fin 2 → Nat) a + S512x128.size a ≤ S512x7168.size a
  inb_S32x7168_S32x128_0_1408 : ∀ a, (![0, 1408] : Fin 2 → Nat) a + S32x128.size a ≤ S32x7168.size a
  slices_S512x56_o0_11_S512x1 : S512x56.Slices ![0, 11] S512x1
  inb_S512x7168_S512x128_0_1536 : ∀ a, (![0, 1536] : Fin 2 → Nat) a + S512x128.size a ≤ S512x7168.size a
  inb_S32x7168_S32x128_0_1536 : ∀ a, (![0, 1536] : Fin 2 → Nat) a + S32x128.size a ≤ S32x7168.size a
  slices_S512x56_o0_12_S512x1 : S512x56.Slices ![0, 12] S512x1
  inb_S512x7168_S512x128_0_1664 : ∀ a, (![0, 1664] : Fin 2 → Nat) a + S512x128.size a ≤ S512x7168.size a
  inb_S32x7168_S32x128_0_1664 : ∀ a, (![0, 1664] : Fin 2 → Nat) a + S32x128.size a ≤ S32x7168.size a
  slices_S512x56_o0_13_S512x1 : S512x56.Slices ![0, 13] S512x1
  inb_S512x7168_S512x128_0_1792 : ∀ a, (![0, 1792] : Fin 2 → Nat) a + S512x128.size a ≤ S512x7168.size a
  inb_S32x7168_S32x128_0_1792 : ∀ a, (![0, 1792] : Fin 2 → Nat) a + S32x128.size a ≤ S32x7168.size a
  slices_S512x56_o0_14_S512x1 : S512x56.Slices ![0, 14] S512x1
  inb_S512x7168_S512x128_0_1920 : ∀ a, (![0, 1920] : Fin 2 → Nat) a + S512x128.size a ≤ S512x7168.size a
  inb_S32x7168_S32x128_0_1920 : ∀ a, (![0, 1920] : Fin 2 → Nat) a + S32x128.size a ≤ S32x7168.size a
  slices_S512x56_o0_15_S512x1 : S512x56.Slices ![0, 15] S512x1
  inb_S512x7168_S512x128_0_2048 : ∀ a, (![0, 2048] : Fin 2 → Nat) a + S512x128.size a ≤ S512x7168.size a
  inb_S32x7168_S32x128_0_2048 : ∀ a, (![0, 2048] : Fin 2 → Nat) a + S32x128.size a ≤ S32x7168.size a
  slices_S512x56_o0_16_S512x1 : S512x56.Slices ![0, 16] S512x1
  inb_S512x7168_S512x128_0_2176 : ∀ a, (![0, 2176] : Fin 2 → Nat) a + S512x128.size a ≤ S512x7168.size a
  inb_S32x7168_S32x128_0_2176 : ∀ a, (![0, 2176] : Fin 2 → Nat) a + S32x128.size a ≤ S32x7168.size a
  slices_S512x56_o0_17_S512x1 : S512x56.Slices ![0, 17] S512x1
  inb_S512x7168_S512x128_0_2304 : ∀ a, (![0, 2304] : Fin 2 → Nat) a + S512x128.size a ≤ S512x7168.size a
  inb_S32x7168_S32x128_0_2304 : ∀ a, (![0, 2304] : Fin 2 → Nat) a + S32x128.size a ≤ S32x7168.size a
  slices_S512x56_o0_18_S512x1 : S512x56.Slices ![0, 18] S512x1
  inb_S512x7168_S512x128_0_2432 : ∀ a, (![0, 2432] : Fin 2 → Nat) a + S512x128.size a ≤ S512x7168.size a
  inb_S32x7168_S32x128_0_2432 : ∀ a, (![0, 2432] : Fin 2 → Nat) a + S32x128.size a ≤ S32x7168.size a
  slices_S512x56_o0_19_S512x1 : S512x56.Slices ![0, 19] S512x1
  inb_S512x7168_S512x128_0_2560 : ∀ a, (![0, 2560] : Fin 2 → Nat) a + S512x128.size a ≤ S512x7168.size a
  inb_S32x7168_S32x128_0_2560 : ∀ a, (![0, 2560] : Fin 2 → Nat) a + S32x128.size a ≤ S32x7168.size a
  slices_S512x56_o0_20_S512x1 : S512x56.Slices ![0, 20] S512x1
  inb_S512x7168_S512x128_0_2688 : ∀ a, (![0, 2688] : Fin 2 → Nat) a + S512x128.size a ≤ S512x7168.size a
  inb_S32x7168_S32x128_0_2688 : ∀ a, (![0, 2688] : Fin 2 → Nat) a + S32x128.size a ≤ S32x7168.size a
  slices_S512x56_o0_21_S512x1 : S512x56.Slices ![0, 21] S512x1
  inb_S512x7168_S512x128_0_2816 : ∀ a, (![0, 2816] : Fin 2 → Nat) a + S512x128.size a ≤ S512x7168.size a
  inb_S32x7168_S32x128_0_2816 : ∀ a, (![0, 2816] : Fin 2 → Nat) a + S32x128.size a ≤ S32x7168.size a
  slices_S512x56_o0_22_S512x1 : S512x56.Slices ![0, 22] S512x1
  inb_S512x7168_S512x128_0_2944 : ∀ a, (![0, 2944] : Fin 2 → Nat) a + S512x128.size a ≤ S512x7168.size a
  inb_S32x7168_S32x128_0_2944 : ∀ a, (![0, 2944] : Fin 2 → Nat) a + S32x128.size a ≤ S32x7168.size a
  slices_S512x56_o0_23_S512x1 : S512x56.Slices ![0, 23] S512x1
  inb_S512x7168_S512x128_0_3072 : ∀ a, (![0, 3072] : Fin 2 → Nat) a + S512x128.size a ≤ S512x7168.size a
  inb_S32x7168_S32x128_0_3072 : ∀ a, (![0, 3072] : Fin 2 → Nat) a + S32x128.size a ≤ S32x7168.size a
  slices_S512x56_o0_24_S512x1 : S512x56.Slices ![0, 24] S512x1
  inb_S512x7168_S512x128_0_3200 : ∀ a, (![0, 3200] : Fin 2 → Nat) a + S512x128.size a ≤ S512x7168.size a
  inb_S32x7168_S32x128_0_3200 : ∀ a, (![0, 3200] : Fin 2 → Nat) a + S32x128.size a ≤ S32x7168.size a
  slices_S512x56_o0_25_S512x1 : S512x56.Slices ![0, 25] S512x1
  inb_S512x7168_S512x128_0_3328 : ∀ a, (![0, 3328] : Fin 2 → Nat) a + S512x128.size a ≤ S512x7168.size a
  inb_S32x7168_S32x128_0_3328 : ∀ a, (![0, 3328] : Fin 2 → Nat) a + S32x128.size a ≤ S32x7168.size a
  slices_S512x56_o0_26_S512x1 : S512x56.Slices ![0, 26] S512x1
  inb_S512x7168_S512x128_0_3456 : ∀ a, (![0, 3456] : Fin 2 → Nat) a + S512x128.size a ≤ S512x7168.size a
  inb_S32x7168_S32x128_0_3456 : ∀ a, (![0, 3456] : Fin 2 → Nat) a + S32x128.size a ≤ S32x7168.size a
  slices_S512x56_o0_27_S512x1 : S512x56.Slices ![0, 27] S512x1
  inb_S512x7168_S512x128_0_3584 : ∀ a, (![0, 3584] : Fin 2 → Nat) a + S512x128.size a ≤ S512x7168.size a
  inb_S32x7168_S32x128_0_3584 : ∀ a, (![0, 3584] : Fin 2 → Nat) a + S32x128.size a ≤ S32x7168.size a
  slices_S512x56_o0_28_S512x1 : S512x56.Slices ![0, 28] S512x1
  inb_S512x7168_S512x128_0_3712 : ∀ a, (![0, 3712] : Fin 2 → Nat) a + S512x128.size a ≤ S512x7168.size a
  inb_S32x7168_S32x128_0_3712 : ∀ a, (![0, 3712] : Fin 2 → Nat) a + S32x128.size a ≤ S32x7168.size a
  slices_S512x56_o0_29_S512x1 : S512x56.Slices ![0, 29] S512x1
  inb_S512x7168_S512x128_0_3840 : ∀ a, (![0, 3840] : Fin 2 → Nat) a + S512x128.size a ≤ S512x7168.size a
  inb_S32x7168_S32x128_0_3840 : ∀ a, (![0, 3840] : Fin 2 → Nat) a + S32x128.size a ≤ S32x7168.size a
  slices_S512x56_o0_30_S512x1 : S512x56.Slices ![0, 30] S512x1
  inb_S512x7168_S512x128_0_3968 : ∀ a, (![0, 3968] : Fin 2 → Nat) a + S512x128.size a ≤ S512x7168.size a
  inb_S32x7168_S32x128_0_3968 : ∀ a, (![0, 3968] : Fin 2 → Nat) a + S32x128.size a ≤ S32x7168.size a
  slices_S512x56_o0_31_S512x1 : S512x56.Slices ![0, 31] S512x1
  inb_S512x7168_S512x128_0_4096 : ∀ a, (![0, 4096] : Fin 2 → Nat) a + S512x128.size a ≤ S512x7168.size a
  inb_S32x7168_S32x128_0_4096 : ∀ a, (![0, 4096] : Fin 2 → Nat) a + S32x128.size a ≤ S32x7168.size a
  slices_S512x56_o0_32_S512x1 : S512x56.Slices ![0, 32] S512x1
  inb_S512x7168_S512x128_0_4224 : ∀ a, (![0, 4224] : Fin 2 → Nat) a + S512x128.size a ≤ S512x7168.size a
  inb_S32x7168_S32x128_0_4224 : ∀ a, (![0, 4224] : Fin 2 → Nat) a + S32x128.size a ≤ S32x7168.size a
  slices_S512x56_o0_33_S512x1 : S512x56.Slices ![0, 33] S512x1
  inb_S512x7168_S512x128_0_4352 : ∀ a, (![0, 4352] : Fin 2 → Nat) a + S512x128.size a ≤ S512x7168.size a
  inb_S32x7168_S32x128_0_4352 : ∀ a, (![0, 4352] : Fin 2 → Nat) a + S32x128.size a ≤ S32x7168.size a
  slices_S512x56_o0_34_S512x1 : S512x56.Slices ![0, 34] S512x1
  inb_S512x7168_S512x128_0_4480 : ∀ a, (![0, 4480] : Fin 2 → Nat) a + S512x128.size a ≤ S512x7168.size a
  inb_S32x7168_S32x128_0_4480 : ∀ a, (![0, 4480] : Fin 2 → Nat) a + S32x128.size a ≤ S32x7168.size a
  slices_S512x56_o0_35_S512x1 : S512x56.Slices ![0, 35] S512x1
  inb_S512x7168_S512x128_0_4608 : ∀ a, (![0, 4608] : Fin 2 → Nat) a + S512x128.size a ≤ S512x7168.size a
  inb_S32x7168_S32x128_0_4608 : ∀ a, (![0, 4608] : Fin 2 → Nat) a + S32x128.size a ≤ S32x7168.size a
  slices_S512x56_o0_36_S512x1 : S512x56.Slices ![0, 36] S512x1
  inb_S512x7168_S512x128_0_4736 : ∀ a, (![0, 4736] : Fin 2 → Nat) a + S512x128.size a ≤ S512x7168.size a
  inb_S32x7168_S32x128_0_4736 : ∀ a, (![0, 4736] : Fin 2 → Nat) a + S32x128.size a ≤ S32x7168.size a
  slices_S512x56_o0_37_S512x1 : S512x56.Slices ![0, 37] S512x1
  inb_S512x7168_S512x128_0_4864 : ∀ a, (![0, 4864] : Fin 2 → Nat) a + S512x128.size a ≤ S512x7168.size a
  inb_S32x7168_S32x128_0_4864 : ∀ a, (![0, 4864] : Fin 2 → Nat) a + S32x128.size a ≤ S32x7168.size a
  slices_S512x56_o0_38_S512x1 : S512x56.Slices ![0, 38] S512x1
  inb_S512x7168_S512x128_0_4992 : ∀ a, (![0, 4992] : Fin 2 → Nat) a + S512x128.size a ≤ S512x7168.size a
  inb_S32x7168_S32x128_0_4992 : ∀ a, (![0, 4992] : Fin 2 → Nat) a + S32x128.size a ≤ S32x7168.size a
  slices_S512x56_o0_39_S512x1 : S512x56.Slices ![0, 39] S512x1
  inb_S512x7168_S512x128_0_5120 : ∀ a, (![0, 5120] : Fin 2 → Nat) a + S512x128.size a ≤ S512x7168.size a
  inb_S32x7168_S32x128_0_5120 : ∀ a, (![0, 5120] : Fin 2 → Nat) a + S32x128.size a ≤ S32x7168.size a
  slices_S512x56_o0_40_S512x1 : S512x56.Slices ![0, 40] S512x1
  inb_S512x7168_S512x128_0_5248 : ∀ a, (![0, 5248] : Fin 2 → Nat) a + S512x128.size a ≤ S512x7168.size a
  inb_S32x7168_S32x128_0_5248 : ∀ a, (![0, 5248] : Fin 2 → Nat) a + S32x128.size a ≤ S32x7168.size a
  slices_S512x56_o0_41_S512x1 : S512x56.Slices ![0, 41] S512x1
  inb_S512x7168_S512x128_0_5376 : ∀ a, (![0, 5376] : Fin 2 → Nat) a + S512x128.size a ≤ S512x7168.size a
  inb_S32x7168_S32x128_0_5376 : ∀ a, (![0, 5376] : Fin 2 → Nat) a + S32x128.size a ≤ S32x7168.size a
  slices_S512x56_o0_42_S512x1 : S512x56.Slices ![0, 42] S512x1
  inb_S512x7168_S512x128_0_5504 : ∀ a, (![0, 5504] : Fin 2 → Nat) a + S512x128.size a ≤ S512x7168.size a
  inb_S32x7168_S32x128_0_5504 : ∀ a, (![0, 5504] : Fin 2 → Nat) a + S32x128.size a ≤ S32x7168.size a
  slices_S512x56_o0_43_S512x1 : S512x56.Slices ![0, 43] S512x1
  inb_S512x7168_S512x128_0_5632 : ∀ a, (![0, 5632] : Fin 2 → Nat) a + S512x128.size a ≤ S512x7168.size a
  inb_S32x7168_S32x128_0_5632 : ∀ a, (![0, 5632] : Fin 2 → Nat) a + S32x128.size a ≤ S32x7168.size a
  slices_S512x56_o0_44_S512x1 : S512x56.Slices ![0, 44] S512x1
  inb_S512x7168_S512x128_0_5760 : ∀ a, (![0, 5760] : Fin 2 → Nat) a + S512x128.size a ≤ S512x7168.size a
  inb_S32x7168_S32x128_0_5760 : ∀ a, (![0, 5760] : Fin 2 → Nat) a + S32x128.size a ≤ S32x7168.size a
  slices_S512x56_o0_45_S512x1 : S512x56.Slices ![0, 45] S512x1
  inb_S512x7168_S512x128_0_5888 : ∀ a, (![0, 5888] : Fin 2 → Nat) a + S512x128.size a ≤ S512x7168.size a
  inb_S32x7168_S32x128_0_5888 : ∀ a, (![0, 5888] : Fin 2 → Nat) a + S32x128.size a ≤ S32x7168.size a
  slices_S512x56_o0_46_S512x1 : S512x56.Slices ![0, 46] S512x1
  inb_S512x7168_S512x128_0_6016 : ∀ a, (![0, 6016] : Fin 2 → Nat) a + S512x128.size a ≤ S512x7168.size a
  inb_S32x7168_S32x128_0_6016 : ∀ a, (![0, 6016] : Fin 2 → Nat) a + S32x128.size a ≤ S32x7168.size a
  slices_S512x56_o0_47_S512x1 : S512x56.Slices ![0, 47] S512x1
  inb_S512x7168_S512x128_0_6144 : ∀ a, (![0, 6144] : Fin 2 → Nat) a + S512x128.size a ≤ S512x7168.size a
  inb_S32x7168_S32x128_0_6144 : ∀ a, (![0, 6144] : Fin 2 → Nat) a + S32x128.size a ≤ S32x7168.size a
  slices_S512x56_o0_48_S512x1 : S512x56.Slices ![0, 48] S512x1
  inb_S512x7168_S512x128_0_6272 : ∀ a, (![0, 6272] : Fin 2 → Nat) a + S512x128.size a ≤ S512x7168.size a
  inb_S32x7168_S32x128_0_6272 : ∀ a, (![0, 6272] : Fin 2 → Nat) a + S32x128.size a ≤ S32x7168.size a
  slices_S512x56_o0_49_S512x1 : S512x56.Slices ![0, 49] S512x1
  inb_S512x7168_S512x128_0_6400 : ∀ a, (![0, 6400] : Fin 2 → Nat) a + S512x128.size a ≤ S512x7168.size a
  inb_S32x7168_S32x128_0_6400 : ∀ a, (![0, 6400] : Fin 2 → Nat) a + S32x128.size a ≤ S32x7168.size a
  slices_S512x56_o0_50_S512x1 : S512x56.Slices ![0, 50] S512x1
  inb_S512x7168_S512x128_0_6528 : ∀ a, (![0, 6528] : Fin 2 → Nat) a + S512x128.size a ≤ S512x7168.size a
  inb_S32x7168_S32x128_0_6528 : ∀ a, (![0, 6528] : Fin 2 → Nat) a + S32x128.size a ≤ S32x7168.size a
  slices_S512x56_o0_51_S512x1 : S512x56.Slices ![0, 51] S512x1
  inb_S512x7168_S512x128_0_6656 : ∀ a, (![0, 6656] : Fin 2 → Nat) a + S512x128.size a ≤ S512x7168.size a
  inb_S32x7168_S32x128_0_6656 : ∀ a, (![0, 6656] : Fin 2 → Nat) a + S32x128.size a ≤ S32x7168.size a
  slices_S512x56_o0_52_S512x1 : S512x56.Slices ![0, 52] S512x1
  inb_S512x7168_S512x128_0_6784 : ∀ a, (![0, 6784] : Fin 2 → Nat) a + S512x128.size a ≤ S512x7168.size a
  inb_S32x7168_S32x128_0_6784 : ∀ a, (![0, 6784] : Fin 2 → Nat) a + S32x128.size a ≤ S32x7168.size a
  slices_S512x56_o0_53_S512x1 : S512x56.Slices ![0, 53] S512x1
  inb_S512x7168_S512x128_0_6912 : ∀ a, (![0, 6912] : Fin 2 → Nat) a + S512x128.size a ≤ S512x7168.size a
  inb_S32x7168_S32x128_0_6912 : ∀ a, (![0, 6912] : Fin 2 → Nat) a + S32x128.size a ≤ S32x7168.size a
  slices_S512x56_o0_54_S512x1 : S512x56.Slices ![0, 54] S512x1
  inb_S512x7168_S512x128_0_7040 : ∀ a, (![0, 7040] : Fin 2 → Nat) a + S512x128.size a ≤ S512x7168.size a
  inb_S32x7168_S32x128_0_7040 : ∀ a, (![0, 7040] : Fin 2 → Nat) a + S32x128.size a ≤ S32x7168.size a
  slices_S512x56_o0_55_S512x1 : S512x56.Slices ![0, 55] S512x1
  inb_S32x512_S32x512_0_0 : ∀ a, (![0, 0] : Fin 2 → Nat) a + S32x512.size a ≤ S32x512.size a
  h_S32x512 : 0 < S32x512.numel
  shapeCasts_S32x18432_S4x8x18432 : S32x18432.ShapeCasts S4x8x18432
  dot_S32x128_S512x128_S32x512_1_1_0_0_n_n_wf : DotDims.WF S32x128 S512x128 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x7168.size a ≤ S32x7168.size a
  hwx0_0 : ∀ i : grid0.Coords, EltTy.bits .bf16 = 32 ∨ (Rect.block (s := S32x7168) S32x7168.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x7168.size a ≤ S18432x7168.size a
  hwx0_1 : ∀ i : grid0.Coords, EltTy.bits .f32 = 32 ∨ (Rect.block (s := S18432x7168) S512x7168.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x56.size a ≤ S18432x56.size a
  hwx0_2 : ∀ i : grid0.Coords, EltTy.bits .f32 = 32 ∨ (Rect.block (s := S18432x56) S512x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x18432.size a
  hwx0_3 : ∀ i : grid0.Coords, EltTy.bits .f32 = 32 ∨ (Rect.block (s := S32x18432) S32x512.size (cc0_transform_3 i) (hinb0_3 i)).WholeWords (EltTy.packing .f32)

variable [Facts₀]

def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

abbrev win0_0 : Pipeline.Window sig grid0 :=
  Pipeline.Window.ofSpec (Memref.whole main_v1) S32x7168.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x7168 : Shape := ⟨3, ![4, 8, 7168]⟩
abbrev S18432x7168 : Shape := ⟨2, ![18432, 7168]⟩
abbrev S144x56 : Shape := ⟨2, ![144, 56]⟩
abbrev S144x128x56x128 : Shape := ⟨4, ![144, 128, 56, 128]⟩
abbrev S144x1x56x1 : Shape := ⟨4, ![144, 1, 56, 1]⟩
abbrev S4x8x18432 : Shape := ⟨3, ![4, 8, 18432]⟩

abbrev nBuf : Space → Nat
  | .hbm => 9
  | .vmem => 0
  | .smem => 0
  | _ => 0

abbrev bufTy : (tb : Table) → Fin (tcTables nBuf tb) → BufTy
  | .hbm, ⟨0, _⟩ => ⟨S4x8x7168, .f32⟩
  | .hbm, ⟨1, _⟩ => ⟨S18432x7168, .f32⟩
  | .hbm, ⟨2, _⟩ => ⟨S144x56, .f32⟩
  | .hbm, ⟨3, _⟩ => ⟨S144x128x56x128, .f32⟩
  | .hbm, ⟨4, _⟩ => ⟨S144x1x56x1, .f32⟩
  | .hbm, ⟨5, _⟩ => ⟨S144x128x56x128, .f32⟩
  | .hbm, ⟨6, _⟩ => ⟨S144x128x56x128, .f32⟩
  | .hbm, ⟨7, _⟩ => ⟨S18432x7168, .f32⟩
  | .hbm, ⟨8, _⟩ => ⟨S4x8x18432, .f32⟩
  | _, _ => ⟨S4x8x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S18432x7168_S144x128x56x128 : S18432x7168.ShapeCasts S144x128x56x128
  bcast_S144x56_S144x1x56x1_0_2 : S144x56.BroadcastsInDim S144x1x56x1 (![0, 2] : Fin 2 → Fin S144x1x56x1.rank)
  bcast_S144x1x56x1_S144x128x56x128_0_1_2_3 : S144x1x56x1.BroadcastsInDim S144x128x56x128 (![0, 1, 2, 3] : Fin 4 → Fin S144x128x56x128.rank)
  shapeCasts_S144x128x56x128_S18432x7168 : S144x128x56x128.ShapeCasts S18432x7168
  dot_S4x8x7168_S18432x7168_S4x8x18432_2_1_01_0_n_n_wf : DotDims.WF S4x8x7168 S18432x7168 S4x8x18432 [2] [1] [0, 1] [0] [] []

variable [Facts₀]

def dot_S4x8x7168_S18432x7168_S4x8x18432_2_1_01_0_n_n : DotDims S4x8x7168 S18432x7168 S4x8x18432 where
  lhsContracting := [2]
  rhsContracting := [1]
  lhsNonContracting := [0, 1]
  rhsNonContracting := [0]
  lhsBatch := []
  rhsBatch := []
  wf := dot_S4x8x7168_S18432x7168_S4x8x18432_2_1_01_0_n_n_wf

class Facts : Prop extends Facts₀ where

variable [Facts]
-- ==== Proof.BlockProduct.lean ====
/-
  One block of 128 columns of the contraction, read at an output entry.

  The kernel walks the 7168 columns of the activation tile `x` ([32, 7168]) and of the weight tile `w` ([512, 7168])
  in 56 blocks of 128. For the block that starts at column `off` it takes the scale tile's column `ib`
  (`s[:, ib]`, one scale per weight row), multiplies every weight row of the block by its scale, and contracts the
  block of `x` with the scaled block of `w` over the 128 columns. Over the extended reals the change of float
  format in between is the identity and the product into a zero accumulator is the plain sum, so entry `(p, q)` is

      Σ_{l < 128}  x[p, off + l] · (w[q, off + l] · s[q, ib]).
-/
import proofs.«118256_j48335561949661_2_alg».proof.Proof.Gen.KernelIdeal
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.Dequant

open Cert.KernelIdeal Cert.KernelIdeal.Gen Idealize.ShloMosaic Idealize.ShloMosaic.ValueIdx

/-- A block of 128 columns starting at `off` lies inside the 7168 columns. -/
theorem off_le {off : ℕ} (h : ∀ a, (![0, off] : Fin 2 → ℕ) a + S32x128.size a ≤ S32x7168.size a) : off + 128 ≤ 7168 :=
  h 1

/-- A one-column slice of the 56 scale columns at column `ib` names one of them. -/
theorem ib_lt {ib : ℕ} (h : S512x56.Slices ![0, ib] S512x1) : ib < 56 := by
  obtain ⟨h1, h2⟩ := h
  have h3 : ib + 1 ≤ 56 := h2 1
  omega

/-- The contraction's left operand index at output entry `(p, q)`: row `p`. -/
theorem lhs_row (j : S32x512.Idx) (k : dot_S32x128_S512x128_S32x512_1_1_0_0_n_n.contr.Idx) :
    (dot_S32x128_S512x128_S32x512_1_1_0_0_n_n.lhsIdx j k 0).val = (j 0).val := by
  unfold DotDims.lhsIdx
  rw [dif_neg (show ¬(0 : Fin S32x128.rank) ∈ dot_S32x128_S512x128_S32x512_1_1_0_0_n_n.lhsBatch by decide),
    dif_pos (show (0 : Fin S32x128.rank) ∈ dot_S32x128_S512x128_S32x512_1_1_0_0_n_n.lhsNonContracting by decide)]
  rfl

/-- The contraction's right operand index at output entry `(p, q)`: row `q`. -/
theorem rhs_row (j : S32x512.Idx) (k : dot_S32x128_S512x128_S32x512_1_1_0_0_n_n.contr.Idx) :
    (dot_S32x128_S512x128_S32x512_1_1_0_0_n_n.rhsIdx j k 0).val = (j 1).val := by
  unfold DotDims.rhsIdx
  rw [dif_neg (show ¬(0 : Fin S512x128.rank) ∈ dot_S32x128_S512x128_S32x512_1_1_0_0_n_n.rhsBatch by decide),
    dif_pos (show (0 : Fin S512x128.rank) ∈ dot_S32x128_S512x128_S32x512_1_1_0_0_n_n.rhsNonContracting by decide)]
  rfl

/-- The product of an activation block with the transposed weight block, into a zero accumulator, at entry `(p, q)`
    is the sum over the block's 128 columns. -/
theorem matmul_block (a : FVec Ideal S32x128 .bf16) (b : FVec Ideal S512x128 .bf16) (p : Fin 32) (q : Fin 512) :
    matmul dot_S32x128_S512x128_S32x512_1_1_0_0_n_n none a b (constant S32x512 .f32 0x00000000#32) (ix2 p q)
      = ∑ l : Fin 128, a (ix2 p l) * b (ix2 q l) := by
  refine (Ideal.matmul_constant_zero_apply dot_S32x128_S512x128_S32x512_1_1_0_0_n_n none a b (ix2 p q)).trans ?_
  rw [← Equiv.sum_comp (contrEquiv1 dot_S32x128_S512x128_S32x512_1_1_0_0_n_n 128 rfl rfl).symm]
  refine Finset.sum_congr rfl fun l _ => ?_
  have hk := contrEquiv1_symm_val dot_S32x128_S512x128_S32x512_1_1_0_0_n_n 128 rfl rfl l
  have el : dot_S32x128_S512x128_S32x512_1_1_0_0_n_n.lhsIdx (ix2 p q)
      ((contrEquiv1 dot_S32x128_S512x128_S32x512_1_1_0_0_n_n 128 rfl rfl).symm l) = ix2 p l :=
    funext fun a => Fin.ext (by
      match a with
      | ⟨0, _⟩ => exact lhs_row _ _
      | ⟨1, _⟩ => exact (dot_S32x128_S512x128_S32x512_1_1_0_0_n_n.lhsIdx_val_of_single rfl _ _).trans hk)
  have er : dot_S32x128_S512x128_S32x512_1_1_0_0_n_n.rhsIdx (ix2 p q)
      ((contrEquiv1 dot_S32x128_S512x128_S32x512_1_1_0_0_n_n 128 rfl rfl).symm l) = ix2 q l :=
    funext fun a => Fin.ext (by
      match a with
      | ⟨0, _⟩ => exact rhs_row _ _
      | ⟨1, _⟩ => exact (dot_S32x128_S512x128_S32x512_1_1_0_0_n_n.rhsIdx_val_of_single rfl _ _).trans hk)
  rw [el, er]

/-- A block of 128 columns of the activation tile starting at column `off`, read at `(p, l)`, is `x[p, off + l]`. -/
theorem ld_x (off : ℕ) (inb : ∀ a, (![0, off] : Fin 2 → ℕ) a + S32x128.size a ≤ S32x7168.size a)
    (x : Vec Ideal S32x7168 .bf16) (p : Fin 32) (l : Fin 128) :
    View.ld x (Rect.unit (s := S32x7168) ![0, off] S32x128.size inb) (ix2 p l)
      = x (ix2 p ⟨off + l.val, by have := off_le inb; have := l.isLt; omega⟩) := by
  show x _ = x _
  refine congrArg x (funext fun a => Fin.ext ?_)
  match a with
  | ⟨0, _⟩ => show 0 + 1 * p.val = p.val; omega
  | ⟨1, _⟩ => show off + 1 * l.val = off + l.val; omega

/-- The same for the weight tile: `w[q, off + l]`. -/
theorem ld_w (off : ℕ) (inb : ∀ a, (![0, off] : Fin 2 → ℕ) a + S512x128.size a ≤ S512x7168.size a)
    (w : Vec Ideal S512x7168 .f32) (q : Fin 512) (l : Fin 128) :
    View.ld w (Rect.unit (s := S512x7168) ![0, off] S512x128.size inb) (ix2 q l)
      = w (ix2 q ⟨off + l.val, by have h : off + 128 ≤ 7168 := inb 1; have := l.isLt; omega⟩) := by
  show w _ = w _
  refine congrArg w (funext fun a => Fin.ext ?_)
  match a with
  | ⟨0, _⟩ => show 0 + 1 * q.val = q.val; omega
  | ⟨1, _⟩ => show off + 1 * l.val = off + l.val; omega

/-- Scale column `ib` spread over the 128 columns of a block, read at `(q, l)`, is `s[q, ib]`. -/
theorem scale_col (ib : ℕ) (hs : S512x56.Slices ![0, ib] S512x1) (s : FVec Ideal S512x56 .f32) (q : Fin 512) (l : Fin 128) :
    broadcastTo S512x128 (extractStridedSlice S512x1 ![0, ib] s hs) broadcasts_S512x1_S512x128 (ix2 q l)
      = s (ix2 q ⟨ib, ib_lt hs⟩) := by
  refine (broadcastTo_apply _ broadcasts_S512x1_S512x128 (ix2 q l) (ix2 q (0 : Fin 1)) (fun a => ?_)).trans ?_
  · match a with
    | ⟨0, _⟩ => show q.val = if (512 : ℕ) = 1 then 0 else q.val; rw [if_neg (by decide)]
    | ⟨1, _⟩ => show (0 : ℕ) = if (1 : ℕ) = 1 then 0 else l.val; rw [if_pos rfl]
  · refine extractStridedSlice_apply ![0, ib] s hs (ix2 q (0 : Fin 1)) (ix2 q ⟨ib, ib_lt hs⟩) (fun a => ?_)
    match a with
    | ⟨0, _⟩ => show q.val = 0 + q.val; omega
    | ⟨1, _⟩ => show ib = ib + 0; omega

/-- ONE BLOCK'S CONTRIBUTION at output entry `(p, q)`: the block of `x` at columns `off …` contracted with the block of
    `w` at the same columns, each weight row scaled by its entry of scale column `ib`. -/
theorem block_apply (ib off : ℕ) (hs : S512x56.Slices ![0, ib] S512x1)
    (inbX : ∀ a, (![0, off] : Fin 2 → ℕ) a + S32x128.size a ≤ S32x7168.size a)
    (inbW : ∀ a, (![0, off] : Fin 2 → ℕ) a + S512x128.size a ≤ S512x7168.size a)
    (x : Vec Ideal S32x7168 .bf16) (w : Vec Ideal S512x7168 .f32) (s : FVec Ideal S512x56 .f32)
    (p : Fin 32) (q : Fin 512) :
    matmul (φ₁ := .bf16) (φ₂ := .bf16) dot_S32x128_S512x128_S32x512_1_1_0_0_n_n none
        (shapeCast S32x128 (View.ld x (Rect.unit (s := S32x7168) ![0, off] S32x128.size inbX)) shapeCasts_S32x128_S32x128)
        (truncf .bf16 (mulf (View.ld w (Rect.unit (s := S512x7168) ![0, off] S512x128.size inbW))
          (broadcastTo S512x128 (extractStridedSlice S512x1 ![0, ib] s hs) broadcasts_S512x1_S512x128) : FVec Ideal S512x128 .f32) bitsLt_bf16_f32)
        (constant S32x512 .f32 0x00000000#32) (ix2 p q)
      = ∑ l : Fin 128, x (ix2 p ⟨off + l.val, by have := off_le inbX; have := l.isLt; omega⟩)
          * (w (ix2 q ⟨off + l.val, by have := off_le inbX; have := l.isLt; omega⟩) * s (ix2 q ⟨ib, ib_lt hs⟩)) := by
  rw [shapeCast_self]
  refine (matmul_block _ _ p q).trans (Finset.sum_congr rfl fun l _ => ?_)
  rw [ld_x off inbX x p l]
  refine congrArg (x _ * ·) ?_
  show View.ld w (Rect.unit (s := S512x7168) ![0, off] S512x128.size inbW) (ix2 q l)
      * broadcastTo S512x128 (extractStridedSlice S512x1 ![0, ib] s hs) broadcasts_S512x1_S512x128 (ix2 q l) = _
  rw [ld_w off inbW w q l, scale_col ib hs s q l]

end Cert.KernelIdeal.Dequant

end
-- ==== Proof.LibTileAccum.lean ====
/-
  Joining a sum accumulated tile by tile to the whole sum.

  The adjacency-weighted sum over all 8192 nodes is computed as eight partial sums, one per tile of 1024 consecutive
  nodes, added one after the other into an accumulator that starts at zero. Over the extended reals addition is
  commutative and associative (an additive commutative monoid), so the accumulated value is the sum over all nodes.
  Nothing here distributes a product over a sum, so no finiteness is needed.
-/
import Mathlib.Algebra.BigOperators.Fin
import Mathlib.Data.Fintype.BigOperators
import Mathlib.Logic.Equiv.Fin.Basic
import Mathlib.Data.EReal.Basic

noncomputable section

open scoped BigOperators

namespace Cert.Accum

/-- A sum over `Fin (m * n)` read as `m` consecutive blocks of `n` terms: block `k`, position `j` is term
    `j + n * k`. -/
theorem blocks_sum {M : Type*} [AddCommMonoid M] (m n : ℕ) (f : Fin (m * n) → M) :
    ∑ k : Fin m, ∑ j : Fin n, f (finProdFinEquiv (k, j)) = ∑ x : Fin (m * n), f x := by
  rw [← Fintype.sum_prod_type' (fun k j => f (finProdFinEquiv (k, j)))]
  exact Equiv.sum_comp finProdFinEquiv f

/-- Eight tiles of 1024 terms make up the sum of all 8192 terms. -/
theorem tiles_sum (f : Fin 8192 → EReal) :
    ∑ k : Fin 8, ∑ j : Fin 1024, f ⟨k.val * 1024 + j.val, by omega⟩ = ∑ n : Fin 8192, f n := by
  refine Eq.trans ?_ (blocks_sum 8 1024 f)
  refine Finset.sum_congr rfl fun k _ => Finset.sum_congr rfl fun j _ => congrArg f (Fin.ext ?_)
  show k.val * 1024 + j.val = j.val + 1024 * k.val
  omega

/-- Eight terms added one after the other into a zero accumulator are their sum. -/
theorem fold8 (d : Fin 8 → EReal) :
    (((((((0 + d 0) + d 1) + d 2) + d 3) + d 4) + d 5) + d 6) + d 7 = ∑ k : Fin 8, d k := by
  rw [Fin.sum_univ_eight, zero_add]

/-- The accumulator after tile `n`: it starts at zero, and each tile adds its partial sum. -/
def accN (d : ℕ → EReal) : ℕ → EReal
  | 0 => 0 + d 0
  | n + 1 => accN d n + d (n + 1)

/-- The accumulator after tile `n` is the sum of the partial sums of tiles `0 … n`. -/
theorem accN_eq (d : ℕ → EReal) (n : ℕ) : accN d n = ∑ k ∈ Finset.range (n + 1), d k := by
  induction n with
  | zero => simp [accN]
  | succ n ih => rw [accN, ih, Finset.sum_range_succ d (n + 1)]

/-- After the eighth tile the accumulator is the sum of all eight partial sums. -/
theorem accN_seven (d : ℕ → EReal) : accN d 7 = ∑ k : Fin 8, d k.val := by
  rw [accN_eq, Finset.sum_range]

/-- The accumulator after the eighth tile, when tile `k`'s partial sum is the sum of `f` over the tile's 1024 terms,
    is the sum of `f` over all 8192 terms. -/
theorem accN_tiles (f : Fin 8192 → EReal) (d : ℕ → EReal)
    (hd : ∀ k : Fin 8, d k.val = ∑ j : Fin 1024, f ⟨k.val * 1024 + j.val, by omega⟩) :
    accN d 7 = ∑ n : Fin 8192, f n := by
  rw [accN_seven, ← tiles_sum f]
  exact Finset.sum_congr rfl fun k _ => hd k

end Cert.Accum

end
-- ==== Proof.BlockFold.lean ====
/-
  The contraction over 7168 columns, regrouped as 56 blocks of 128.

  The kernel adds the 56 block contributions one after the other into an accumulator that starts at zero; the
  reference contracts all 7168 columns at once. Addition on the extended reals is commutative and associative, so the
  two agree: a sum over 7168 columns is the sum over 56 blocks of the sums over each block's 128 columns. No product
  is distributed over a sum here, so no entry has to be finite.
-/
import proofs.«118256_j48335561949661_2_alg».proof.Proof.LibTileAccum

noncomputable section

open scoped BigOperators

namespace Cert.Dequant

/-- The sum of `f` over the 128 columns of block `k`: columns `128·k … 128·k + 127`. -/
def blockSum (f : Fin 7168 → EReal) (k : Fin 56) : EReal :=
  ∑ l : Fin 128, f ⟨128 * k.val + l.val, by have := k.isLt; have := l.isLt; omega⟩

/-- The 56 block sums add up to the sum over all 7168 columns. -/
theorem blocks56 (f : Fin 7168 → EReal) : ∑ k : Fin 56, blockSum f k = ∑ i : Fin 7168, f i := by
  refine Eq.trans ?_ (Cert.Accum.blocks_sum 56 128 f)
  refine Finset.sum_congr rfl fun k _ => Finset.sum_congr rfl fun l _ => congrArg f (Fin.ext ?_)
  show 128 * k.val + l.val = l.val + 128 * k.val
  omega

/-- Fifty-six terms added one after the other, first to last, are their sum. -/
theorem fold56 (d : Fin 56 → EReal) :
    d 0 + d 1 + d 2 + d 3 + d 4 + d 5 + d 6 + d 7 + d 8 + d 9 + d 10 + d 11 + d 12 + d 13 + d 14 + d 15 + d 16 + d 17 + d 18 + d 19 + d 20 + d 21 + d 22 + d 23 + d 24 + d 25 + d 26 + d 27 + d 28 + d 29 + d 30 + d 31 + d 32 + d 33 + d 34 + d 35 + d 36 + d 37 + d 38 + d 39 + d 40 + d 41 + d 42 + d 43 + d 44 + d 45 + d 46 + d 47 + d 48 + d 49 + d 50 + d 51 + d 52 + d 53 + d 54 + d 55 = ∑ k : Fin 56, d k := by
  simp only [Fin.sum_univ_castSucc, Fin.sum_univ_zero, zero_add]
  rfl

end Cert.Dequant

end
-- ==== Proof.TilePayload.lean ====
/-
  What the kernel body leaves in its output tile, entry by entry.

  At one grid point the body holds the whole activation tile `x` ([32, 7168]), a tile `w` of 512 weight rows
  ([512, 7168]) and the matching tile `s` of scales ([512, 56]: one scale per weight row and per block of 128
  columns). It adds, block after block, the 56 block contributions to a zero accumulator and stores the result. So
  entry `(p, q)` of the stored tile is the sum over ALL 7168 columns

      Σ_{i < 7168}  x[p, i] · (w[q, i] · s[q, i / 128]).
-/
import proofs.«118256_j48335561949661_2_alg».proof.Proof.BlockProduct
import proofs.«118256_j48335561949661_2_alg».proof.Proof.BlockFold
import proofs.«118256_j48335561949661_2_alg».proof.Proof.Gen.KernelIdeal.Frame

noncomputable section

namespace Cert.KernelIdeal.Dequant

open Cert.KernelIdeal Cert.KernelIdeal.Gen Cert.Dequant Idealize.ShloMosaic Idealize.ShloMosaic.ValueIdx

theorem offsets_zero : (![0, 0] : Fin 2 → Nat) = fun _ => 0 := funext fun a => by fin_cases a <;> rfl

/-- Column `i`'s term of entry `(p, q)`: the activation, times the weight scaled by its block's scale. -/
def colTerm (x : Vec Ideal S32x7168 .bf16) (w : Vec Ideal S512x7168 .f32) (s : Vec Ideal S512x56 .f32)
    (p : Fin 32) (q : Fin 512) (i : Fin 7168) : EReal :=
  x (ix2 p i) * (w (ix2 q i) * s (ix2 q ⟨i.val / 128, by have := i.isLt; omega⟩))

/-- Block `k`'s contribution to entry `(p, q)`, as the body forms it: the block's one scale column `k`. -/
def blockRow (x : Vec Ideal S32x7168 .bf16) (w : Vec Ideal S512x7168 .f32) (s : Vec Ideal S512x56 .f32)
    (p : Fin 32) (q : Fin 512) (k : Fin 56) : EReal :=
  ∑ l : Fin 128, x (ix2 p ⟨128 * k.val + l.val, by have := k.isLt; have := l.isLt; omega⟩)
    * (w (ix2 q ⟨128 * k.val + l.val, by have := k.isLt; have := l.isLt; omega⟩) * s (ix2 q k))

/-- A block's contribution is the sum of its 128 columns' terms: every column of block `k` has scale column `k`. -/
theorem blockRow_eq (x : Vec Ideal S32x7168 .bf16) (w : Vec Ideal S512x7168 .f32) (s : Vec Ideal S512x56 .f32)
    (p : Fin 32) (q : Fin 512) (k : Fin 56) : blockRow x w s p q k = blockSum (colTerm x w s p q) k := by
  unfold blockRow blockSum colTerm
  refine Finset.sum_congr rfl fun l _ => ?_
  refine congrArg (fun j : Fin 56 => _ * (_ * s (ix2 q j))) (Fin.ext ?_)
  show k.val = (128 * k.val + l.val) / 128
  have := l.isLt
  omega

/-- THE STORED TILE at entry `(p, q)`. -/
theorem tile_entry (x : Vec Ideal S32x7168 .bf16) (w : Vec Ideal S512x7168 .f32) (s : Vec Ideal S512x56 .f32)
    (p : Fin 32) (q : Fin 512) :
    out0_3 x w s (ix2 p q) = ∑ i : Fin 7168, colTerm x w s p q i := by
  unfold out0_3
  rw [View.canon_unit_zero offsets_zero]
  unfold k0_pay1 k0_pay26 k0_pay24 k0_pay21 k0_pay20 k0_pay19 k0_pay16 k0_pay14 k0_pay13 k0_pay11 k0_pay8 k0_pay7 k0_pay6 k0_pay3
    k0_pay4 k0_pay5 k0_pay9 k0_pay10 k0_pay12 k0_pay15 k0_pay17 k0_pay18 k0_pay22 k0_pay23 k0_pay25 k0_pay2
  simp only [addf_apply, block_apply, broadcast_apply]
  simp only [shapeCast_self, View.ld_unit_zero (S := S512x56) offsets_zero]
  rw [show (Scalar.ofBits .f32 0x00000000#32 : Ideal .f32) = 0 from Ideal.ofBits_zero_f32, zero_add]
  refine (fold56 (blockRow x w s p q)).trans ?_
  rw [Finset.sum_congr rfl fun k _ => blockRow_eq x w s p q k, blocks56]

end Cert.KernelIdeal.Dequant

end
-- ==== Proof.Spec.lean ====
/-
  The function both programs compute.

  `y = x · dequant(weight, scale)ᵀ`: for activations `x` ([4, 8, 7168]), weights `w` ([18432, 7168]) and block scales
  `s` ([144, 56], one scale per 128 × 128 block of the weight), entry `(b, t, o)` of the result is

      Σ_{i < 7168}  x[b, t, i] · (w[o, i] · s[o / 128, i / 128]).

  Stated over the extended reals, index by index; the factors are kept in this order and grouping, which is the one
  both programs use, so that no law of multiplication is needed to compare them.
-/
import Idealize.ShloMosaic.Lib.ValueIdx
import Mathlib.Data.EReal.Basic

noncomputable section

open scoped BigOperators

namespace Cert.Dequant

open Idealize.ShloMosaic Idealize.ShloMosaic.ValueIdx

/-- Entry `(b, t, o)` of the dequantized linear map. -/
def linearEntry (x : (⟨3, ![4, 8, 7168]⟩ : Shape).Idx → EReal) (w : (⟨2, ![18432, 7168]⟩ : Shape).Idx → EReal)
    (s : (⟨2, ![144, 56]⟩ : Shape).Idx → EReal) (b : Fin 4) (t : Fin 8) (o : Fin 18432) : EReal :=
  ∑ i : Fin 7168, x (ix3 b t i)
    * (w (ix2 o i) * s (ix2 (⟨o.val / 128, by have := o.isLt; omega⟩ : Fin 144) (⟨i.val / 128, by have := i.isLt; omega⟩ : Fin 56)))

/-- The whole result, as one function of the three argument arrays. -/
def linear (x : (⟨3, ![4, 8, 7168]⟩ : Shape).Idx → EReal) (w : (⟨2, ![18432, 7168]⟩ : Shape).Idx → EReal)
    (s : (⟨2, ![144, 56]⟩ : Shape).Idx → EReal) : (⟨3, ![4, 8, 18432]⟩ : Shape).Idx → EReal :=
  fun j => linearEntry x w s (j 0) (j 1) (j 2)

theorem linear_ix3 (x : (⟨3, ![4, 8, 7168]⟩ : Shape).Idx → EReal) (w : (⟨2, ![18432, 7168]⟩ : Shape).Idx → EReal)
    (s : (⟨2, ![144, 56]⟩ : Shape).Idx → EReal) (b : Fin 4) (t : Fin 8) (o : Fin 18432) :
    linear x w s (ix3 b t o) = linearEntry x w s b t o := rfl

end Cert.Dequant

end
-- ==== Proof.HostGlue.lean ====
/-
  The plumbing around the kernel call, read at an index.

  Before the call the program flattens the activations [4, 8, 7168] to [32, 7168] (row `8·b + t`; then a change of
  float format, which over the extended reals is the identity) and repeats every row of the scales [144, 56] 128
  times ([144, 128, 56] viewed as [18432, 56]: row `o` is scale row `o / 128`). After the call it views the
  result [32, 18432] as [4, 8, 18432]. With the call's output array at

      A[p, o] = Σ_{i < 7168}  X[p, i] · (W[o, i] · S[o, i / 128])

  of the flattened activations `X`, the weights `W` and the repeated scales `S`, the program's result is the
  dequantized linear map of its three arguments.
-/
import proofs.«118256_j48335561949661_2_alg».proof.Proof.Spec
import proofs.«118256_j48335561949661_2_alg».proof.Proof.Gen.KernelIdeal
import Idealize.ShloMosaic.Lib.Pipeline.Value
import Idealize.ShloMosaic.Lib.ValueIdx

noncomputable section

namespace Cert.KernelIdeal.Dequant

open Cert.KernelIdeal Cert.KernelIdeal.Gen Cert.Dequant Idealize.ShloMosaic Idealize.ShloMosaic.ValueIdx

/-- Entry `(p, o)` of the call's output array, from the three arrays the call is given. -/
def arrayEntry (X : Vec Ideal S32x7168 .bf16) (W : Vec Ideal S18432x7168 .f32) (S : Vec Ideal S18432x56 .f32)
    (p : Fin 32) (o : Fin 18432) : EReal :=
  ∑ i : Fin 7168, X (ix2 p i) * (W (ix2 o i) * S (ix2 o (⟨i.val / 128, by have := i.isLt; omega⟩ : Fin 56)))

/-- The call's output array as one function of the three arrays it is given. -/
def arrayOf (X : Vec Ideal S32x7168 .bf16) (W : Vec Ideal S18432x7168 .f32) (S : Vec Ideal S18432x56 .f32) :
    Vec Ideal S32x18432 .f32 :=
  fun j => arrayEntry X W S (j 0) (j 1)

/-- The array at an index whose coordinates are `p` and `o`. -/
theorem arrayOf_apply (X : Vec Ideal S32x7168 .bf16) (W : Vec Ideal S18432x7168 .f32) (S : Vec Ideal S18432x56 .f32)
    (j : S32x18432.Idx) (p : Fin 32) (o : Fin 18432) (h0 : (j 0).val = p.val) (h1 : (j 1).val = o.val) :
    arrayOf X W S j = arrayEntry X W S p o := by
  have e0 : (j 0 : Fin 32) = p := Fin.ext h0
  have e1 : (j 1 : Fin 18432) = o := Fin.ext h1
  show arrayEntry X W S (j 0) (j 1) = _
  rw [e0, e1]

/-- The flattened activations at `(p, i)`: batch `p / 8`, position `p % 8`. -/
theorem flat_x (a0 : Vec Ideal S4x8x7168 .f32) (p : Fin 32) (i : Fin 7168) :
    (truncf .bf16 (shapeCast S32x7168 a0 shapeCasts_S4x8x7168_S32x7168 : FVec Ideal S32x7168 .f32) bitsLt_bf16_f32
        : FVec Ideal S32x7168 .bf16) (ix2 p i)
      = a0 (ix3 (⟨p.val / 8, by have := p.isLt; omega⟩ : Fin 4) (⟨p.val % 8, by omega⟩ : Fin 8) i) := by
  show shapeCast S32x7168 a0 shapeCasts_S4x8x7168_S32x7168 (ix2 p i) = _
  refine shapeCast_apply a0 shapeCasts_S4x8x7168_S32x7168 (ix2 p i) _ ?_
  rewrite [Shape.rowMajor_val_three, Shape.rowMajor_val_two]
  show (p.val / 8 * 8 + p.val % 8) * 7168 + i.val = p.val * 7168 + i.val
  omega

/-- The repeated scales at `(o, k)`: scale row `o / 128`. -/
theorem repeated_s (a2 : Vec Ideal S144x56 .f32) (o : Fin 18432) (k : Fin 56) :
    shapeCast S18432x56 (broadcastInDim S144x128x56 ![0, 2] bcast_S144x56_S144x128x56_0_2 a2) shapeCasts_S144x128x56_S18432x56 (ix2 o k)
      = a2 (ix2 (⟨o.val / 128, by have := o.isLt; omega⟩ : Fin 144) k) := by
  have ho := o.isLt
  refine (shapeCast_apply _ shapeCasts_S144x128x56_S18432x56 (ix2 o k)
    (ix3 (⟨o.val / 128, by omega⟩ : Fin 144) (⟨o.val % 128, by omega⟩ : Fin 128) k) ?_).trans ?_
  · rewrite [Shape.rowMajor_val_three, Shape.rowMajor_val_two]
    show (o.val / 128 * 128 + o.val % 128) * 56 + k.val = o.val * 56 + k.val
    omega
  · refine broadcastInDim_apply _ bcast_S144x56_S144x128x56_0_2 a2 _ (ix2 (⟨o.val / 128, by omega⟩ : Fin 144) k) (fun a => ?_)
    match a with
    | ⟨0, _⟩ => show o.val / 128 = if (144 : ℕ) = 1 then 0 else o.val / 128; rw [if_neg (by decide)]
    | ⟨1, _⟩ => show k.val = if (56 : ℕ) = 1 then 0 else k.val; rw [if_neg (by decide)]

/-- THE PROGRAM'S RESULT from the call's output array: the dequantized linear map of the three arguments. -/
theorem result_of_array (a0 : Vec Ideal S4x8x7168 .f32) (a1 : Vec Ideal S18432x7168 .f32) (a2 : Vec Ideal S144x56 .f32) :
    shapeCast S4x8x18432
      (arrayOf (truncf .bf16 (shapeCast S32x7168 a0 shapeCasts_S4x8x7168_S32x7168 : FVec Ideal S32x7168 .f32) bitsLt_bf16_f32) a1
        (shapeCast S18432x56 (broadcastInDim S144x128x56 ![0, 2] bcast_S144x56_S144x128x56_0_2 a2) shapeCasts_S144x128x56_S18432x56))
      shapeCasts_S32x18432_S4x8x18432
    = linear a0 a1 a2 := by
  funext j
  obtain ⟨b, t, o, rfl⟩ : ∃ (b : Fin 4) (t : Fin 8) (o : Fin 18432), j = ix3 b t o := ⟨j 0, j 1, j 2, eq_ix3 j⟩
  have hb := b.isLt
  have ht := t.isLt
  rw [linear_ix3]
  refine (shapeCast_apply _ shapeCasts_S32x18432_S4x8x18432 (ix3 b t o) (ix2 (⟨8 * b.val + t.val, by omega⟩ : Fin 32) o) ?_).trans ?_
  · rewrite [Shape.rowMajor_val_three, Shape.rowMajor_val_two]
    show (8 * b.val + t.val) * 18432 + o.val = (b.val * 8 + t.val) * 18432 + o.val
    omega
  · rw [arrayOf_apply _ _ _ _ (⟨8 * b.val + t.val, by omega⟩ : Fin 32) o rfl rfl]
    unfold arrayEntry linearEntry
    refine Finset.sum_congr rfl fun i _ => ?_
    rw [flat_x a0 _ i, repeated_s a2 o _]
    have ho := o.isLt
    have hi := i.isLt
    have e : ix3 (⟨(8 * b.val + t.val) / 8, by omega⟩ : Fin 4) (⟨(8 * b.val + t.val) % 8, by omega⟩ : Fin 8) i = ix3 b t i :=
      funext fun a => Fin.ext (by
        match a with
        | ⟨0, _⟩ => show (8 * b.val + t.val) / 8 = b.val; omega
        | ⟨1, _⟩ => show (8 * b.val + t.val) % 8 = t.val; omega
        | ⟨2, _⟩ => rfl)
    exact congrArg (fun z => a0 z * (a1 (ix2 o i)
      * a2 (ix2 (⟨o.val / 128, by omega⟩ : Fin 144) (⟨i.val / 128, by omega⟩ : Fin 56)))) e

end Cert.KernelIdeal.Dequant

end
-- ==== Proof.OutputArray.lean ====
/-
  From tiles to the call's output array.

  The grid has 36 points. At point `t` the body sees the whole flattened activations, weight rows `512·t … 512·t + 511`
  with the matching rows of the repeated scales, and writes columns `512·t … 512·t + 511` of the output [32, 18432].
  By the tile's value (entry `(p, q)` of the stored tile is the contraction of activation row `p` with scaled weight
  row `q` of the tile), what point `t` writes back is block `t` of ONE function of the three arrays the call is
  given: output entry `(p, o)` contracts activation row `p` with scaled weight row `o`. The 36 blocks tile the
  output, so after the call the output array IS that function.
-/
import proofs.«118256_j48335561949661_2_alg».proof.Proof.TilePayload
import proofs.«118256_j48335561949661_2_alg».proof.Proof.HostGlue
import proofs.«118256_j48335561949661_2_alg».proof.Proof.Gen.KernelIdeal.Frame
import Idealize.ShloMosaic.Lib.Pipeline.Value

noncomputable section

namespace Cert.KernelIdeal.Dequant

open Cert.KernelIdeal Cert.KernelIdeal.Gen Cert.Dequant Idealize.ShloMosaic Idealize.ShloMosaic.TcCoe Idealize.ShloMosaic.ValueIdx
open Idealize.SL.Sem

variable (m : (ℓ : Loc nD τ sig) → Buf (Elt Ideal) ℓ)

/-- The windows' block indices at grid point `t`: the activations' only block; row block `t` of the weights and of
    the repeated scales; column block `t` of the output. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

theorem point_lt (t : Fin cfg0.N) : t.val < 36 := lt_of_lt_of_eq t.isLt N_0

/-- The activations' block at any point is the whole flattened array. -/
theorem x_block (c : Dev nD) (t : Fin cfg0.N) (p : Fin 32) (i : Fin 7168) :
    iblk m c 0 t (ix2 p i) = V m c main_v1 (ix2 p i) := by
  obtain ⟨e0, e1, -⟩ := block_indices t
  show V m c main_v1 (((cfg0.win 0).blk t).view.emb (ix2 p i)) = V m c main_v1 (ix2 p i)
  refine congrArg _ (funext fun a => Fin.ext ?_)
  match a with
  | ⟨0, _⟩ => show win0_0.index t (0 : Fin 2) * 32 + 1 * p.val = p.val; omega
  | ⟨1, _⟩ => show win0_0.index t (1 : Fin 2) * 7168 + 1 * i.val = i.val; omega

/-- Row `q` of the weights' block at point `t` is weight row `512·t + q`. -/
theorem w_block (c : Dev nD) (t : Fin cfg0.N) (q : Fin 512) (i : Fin 7168) :
    iblk m c 1 t (ix2 q i)
      = V m c main_arg1 (ix2 (⟨512 * t.val + q.val, by have := point_lt t; have := q.isLt; omega⟩ : Fin 18432) i) := by
  obtain ⟨-, -, e2, e3, -⟩ := block_indices t
  show V m c main_arg1 (((cfg0.win 1).blk t).view.emb (ix2 q i)) = _
  refine congrArg _ (funext fun a => Fin.ext ?_)
  match a with
  | ⟨0, _⟩ => show win0_1.index t (0 : Fin 2) * 512 + 1 * q.val = 512 * t.val + q.val; omega
  | ⟨1, _⟩ => show win0_1.index t (1 : Fin 2) * 7168 + 1 * i.val = i.val; omega

/-- Row `q` of the repeated scales' block at point `t` is their row `512·t + q`. -/
theorem s_block (c : Dev nD) (t : Fin cfg0.N) (q : Fin 512) (k : Fin 56) :
    iblk m c 2 t (ix2 q k)
      = V m c main_v3 (ix2 (⟨512 * t.val + q.val, by have := point_lt t; have := q.isLt; omega⟩ : Fin 18432) k) := by
  obtain ⟨-, -, -, -, e4, e5, -⟩ := block_indices t
  show V m c main_v3 (((cfg0.win 2).blk t).view.emb (ix2 q k)) = _
  refine congrArg _ (funext fun a => Fin.ext ?_)
  match a with
  | ⟨0, _⟩ => show win0_2.index t (0 : Fin 2) * 512 + 1 * q.val = 512 * t.val + q.val; omega
  | ⟨1, _⟩ => show win0_2.index t (1 : Fin 2) * 56 + 1 * k.val = k.val; omega

/-- WHAT POINT `t` WRITES BACK is block `t` of the output function of the arrays as the call finds them. -/
theorem flushed_eq (c : Dev nD) (t : Fin cfg0.N) :
    (dats m 0 c).flushed 3 t
      = ((cfg0.win 3).blk t).view.read (Elt Ideal) (arrayOf (V m c main_v1) (V m c main_arg1) (V m c main_v3)) := by
  show (cfg0.win 3).cut (grid0.coords t) ((dats m 0 c).after 3 t) = _
  rw [after0_3]
  funext y
  obtain ⟨p, q, rfl⟩ : ∃ (p : Fin 32) (q : Fin 512), y = ix2 p q := ⟨y 0, y 1, eq_ix2 y⟩
  obtain ⟨-, -, -, -, -, -, e6, e7⟩ := block_indices t
  have ht := point_lt t
  have hq := q.isLt
  show out0_3 (iblk m c 0 t) (iblk m c 1 t) (iblk m c 2 t) (ix2 p q)
    = arrayOf (V m c main_v1) (V m c main_arg1) (V m c main_v3) (((cfg0.win 3).blk t).view.emb (ix2 p q))
  refine (tile_entry (iblk m c 0 t) (iblk m c 1 t) (iblk m c 2 t) p q).trans ?_
  refine Eq.trans ?_ (arrayOf_apply (V m c main_v1) (V m c main_arg1) (V m c main_v3) _ p
    (⟨512 * t.val + q.val, by omega⟩ : Fin 18432) ?_ ?_).symm
  · unfold arrayEntry
    refine Finset.sum_congr rfl fun i _ => ?_
    unfold colTerm
    rw [x_block m c t p i, w_block m c t q i, s_block m c t q _]
  · show win0_3.index t (0 : Fin 2) * 32 + 1 * p.val = p.val; omega
  · show win0_3.index t (1 : Fin 2) * 512 + 1 * q.val = 512 * t.val + q.val; omega

/-- An index of the output is in point `t`'s block iff each coordinate is in the block's range on its axis. -/
theorem mem_block (t : Fin cfg0.N) (i : S32x18432.Idx) :
    i ∈ ((cfg0.win 3).blk t).view.set ↔ ∀ a : Fin 2, win0_3.index t a * S32x512.size a ≤ (i a).val
      ∧ (i a).val < win0_3.index t a * S32x512.size a + S32x512.size a := by
  show i ∈ ((View.whole main_v4).slice (win0_3.rect t)).set ↔ _
  rw [View.set_slice_whole, Rect.mem_set_unit]
  exact Iff.rfl

/-- Every index of the output lies in the block of the point its column names: `o / 512`. -/
theorem covered (i : S32x18432.Idx) :
    ∃ t : Fin cfg0.N, (cfg0.win 3).flush t = true ∧ i ∈ ((cfg0.win 3).blk t).view.set := by
  have h0 : (i 0).val < 32 := (i 0).isLt
  have h1 : (i 1).val < 18432 := (i 1).isLt
  obtain ⟨t, ht⟩ : ∃ t : Fin cfg0.N, t.val = (i 1).val / 512 :=
    ⟨⟨(i 1).val / 512, lt_of_lt_of_eq (by omega : (i 1).val / 512 < 36) N_0.symm⟩, rfl⟩
  obtain ⟨-, -, -, -, -, -, e6, e7⟩ := block_indices t
  refine ⟨t, flush0_3 t, ?_⟩
  rw [mem_block]
  intro a
  match a with
  | ⟨0, _⟩ =>
    show win0_3.index t (0 : Fin 2) * 32 ≤ (i 0).val ∧ (i 0).val < win0_3.index t (0 : Fin 2) * 32 + 32
    omega
  | ⟨1, _⟩ =>
    show win0_3.index t (1 : Fin 2) * 512 ≤ (i 1).val ∧ (i 1).val < win0_3.index t (1 : Fin 2) * 512 + 512
    omega

/-- THE OUTPUT ARRAY after the call: the output function of the arrays as the call finds them. -/
theorem output_array (c : Dev nD) :
    (dats m 0 c).arrAt 3 cfg0.N = arrayOf (V m c main_v1) (V m c main_arg1) (V m c main_v3) :=
  (dats m 0 c).arrAt_eq_of_cover 3 _ (fun t _ => flushed_eq m c t) covered

end Cert.KernelIdeal.Dequant

end
-- ==== Proof.KernelRun.lean ====
/-
  The kernel program's run, read back.

  The frame run leaves the call's output array at the output function of the arrays as the call finds them; those are
  the flattened activations, the weights as launched and the repeated scales; and the one line after the call views
  the output [32, 18432] as [4, 8, 18432]. Together: the program ends with its result at the dequantized linear map of
  its three arguments, and with the arguments unchanged.
-/
import proofs.«118256_j48335561949661_2_alg».proof.Proof.OutputArray
import Idealize.ShloMosaic.Lib.StableHlo.Run

noncomputable section

namespace Cert.KernelIdeal.Dequant

open Cert.KernelIdeal Cert.KernelIdeal.Gen Cert.Dequant Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The call finds the activations flattened (and changed of float format). -/
theorem entry_x (c : Dev nD) :
    V m c main_v1 = truncf .bf16
      (shapeCast S32x7168 (m ((c : Thread nD τ).loc main_arg0)) shapeCasts_S4x8x7168_S32x7168 : FVec Ideal S32x7168 .f32)
      bitsLt_bf16_f32 := by
  show StableHlo.after hostOps0 (fun b => m (c, b)) (Proc.devRef .tc main_v1) = _
  after_results
  rfl

/-- The call finds the scales with every row repeated 128 times. -/
theorem entry_s (c : Dev nD) :
    V m c main_v3 = shapeCast S18432x56
      (broadcastInDim S144x128x56 ![0, 2] bcast_S144x56_S144x128x56_0_2 (m ((c : Thread nD τ).loc main_arg2)))
      shapeCasts_S144x128x56_S18432x56 := by
  show StableHlo.after hostOps0 (fun b => m (c, b)) (Proc.devRef .tc main_v3) = _
  after_results
  rfl

/-- After the frame run the program's result is the dequantized linear map of the arguments as launched. -/
theorem result (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v5)
      = linear (m ((c : Thread nD τ).loc main_arg0)) (m ((c : Thread nD τ).loc main_arg1)) (m ((c : Thread nD τ).loc main_arg2)) := by
  refine ((h c).2 main_v5 (Pipeline.mem_restRefs_of main_v5 (by decide) (by decide))).trans ?_
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4)
      = arrayOf (truncf .bf16
            (shapeCast S32x7168 (m ((c : Thread nD τ).loc main_arg0)) shapeCasts_S4x8x7168_S32x7168 : FVec Ideal S32x7168 .f32)
            bitsLt_bf16_f32)
          (m ((c : Thread nD τ).loc main_arg1))
          (shapeCast S18432x56
            (broadcastInDim S144x128x56 ![0, 2] bcast_S144x56_S144x128x56_0_2 (m ((c : Thread nD τ).loc main_arg2)))
            shapeCasts_S144x128x56_S18432x56) :=
    (Pipeline.withArrays_arr spec0 launch0.win.arr_inj c _ _ 3).trans
      ((output_array m c).trans (by rw [entry_x, entry_s, V_main_arg1]))
  show shapeCast S4x8x18432
      (Pipeline.withArrays (cfgs 0).spec c (V0 m c) (fun w => (dats m 0 c).arrAt w (cfgs 0).N) (Proc.devRef .tc main_v4))
      shapeCasts_S32x18432_S4x8x18432 = _
  rw [hA]
  exact result_of_array _ _ _

/-- THE KERNEL PROGRAM'S RUN: every weakly fair execution terminates with the result at the dequantized linear map of
    the arguments as launched, and the arguments unchanged. -/
theorem run : θ_run defs (onTc (τ := τ) (main (F := Ideal))) ⟨m, fun _ => 0, ρ⟩ fun r => ∀ c : Dev nD,
      r.2.mem ((c : Thread nD τ).loc main_v5)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨result m r h c,
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Dequant

end
-- ==== Proof.RefResult.lean ====
/-
  The reference computes the dequantized linear map.

  The reference views the weight as [144, 128, 56, 128] (block row, row in block, block column, column in block),
  multiplies by the scales broadcast over the two inner axes, views the product as [18432, 7168] again and contracts
  it with the activations over the 7168 columns. Row `o`, column `i` of the weight sits at block row `o / 128` and
  block column `i / 128`, so the scaled weight at `(o, i)` is `w[o, i] · s[o / 128, i / 128]`.
-/
import proofs.«118256_j48335561949661_2_alg».proof.Proof.Spec
import proofs.«118256_j48335561949661_2_alg».proof.Proof.Gen.ReferenceIdeal.Read

noncomputable section

namespace Cert.ReferenceIdeal.Dequant

open Cert.ReferenceIdeal Cert.ReferenceIdeal.Gen Cert.ReferenceIdeal.Read Cert.Dequant Idealize.ShloMosaic Idealize.ShloMosaic.ValueIdx

/-- The scaled weight as the reference forms it, at row `o` and column `i`. -/
theorem scaled_weight (w : (⟨S18432x7168, .f32⟩ : BufTy).Contents (Elt Ideal)) (s : (⟨S144x56, .f32⟩ : BufTy).Contents (Elt Ideal))
    (o : Fin 18432) (i : Fin 7168) :
    val_main_v4 (F := Ideal) w s (ix2 o i)
      = w (ix2 o i) * s (ix2 (⟨o.val / 128, by have := o.isLt; omega⟩ : Fin 144) (⟨i.val / 128, by have := i.isLt; omega⟩ : Fin 56)) := by
  have ho := o.isLt
  have hi := i.isLt
  rw [val_main_v4_apply, val_main_v3_apply, val_main_v0_apply, val_main_v2_apply, val_main_v1_apply]
  have e0 : idx_main_v0 (idx_main_v4 (ix2 o i)) = ix2 o i := funext fun a => Fin.ext (by
    match a with
    | ⟨0, _⟩ =>
      show ((((o.val * 7168 + i.val) / 917504 * 128 + (o.val * 7168 + i.val) / 7168 % 128) * 56
        + (o.val * 7168 + i.val) / 128 % 56) * 128 + (o.val * 7168 + i.val) % 128) / 7168 = o.val
      omega
    | ⟨1, _⟩ =>
      show ((((o.val * 7168 + i.val) / 917504 * 128 + (o.val * 7168 + i.val) / 7168 % 128) * 56
        + (o.val * 7168 + i.val) / 128 % 56) * 128 + (o.val * 7168 + i.val) % 128) % 7168 = i.val
      omega)
  have e1 : idx_main_v1 (idx_main_v2 (idx_main_v4 (ix2 o i)))
      = ix2 (⟨o.val / 128, by omega⟩ : Fin 144) (⟨i.val / 128, by omega⟩ : Fin 56) := funext fun a => Fin.ext (by
    match a with
    | ⟨0, _⟩ => show (o.val * 7168 + i.val) / 917504 = o.val / 128; omega
    | ⟨1, _⟩ => show (o.val * 7168 + i.val) / 128 % 56 = i.val / 128; omega)
  rw [e0, e1]
  rfl

/-- THE REFERENCE'S RESULT is the dequantized linear map of its three arguments. -/
theorem result_eq (x : (⟨S4x8x7168, .f32⟩ : BufTy).Contents (Elt Ideal)) (w : (⟨S18432x7168, .f32⟩ : BufTy).Contents (Elt Ideal))
    (s : (⟨S144x56, .f32⟩ : BufTy).Contents (Elt Ideal)) :
    val_main_v5 (F := Ideal) x w s = linear x w s := by
  funext j
  obtain ⟨b, t, o, rfl⟩ : ∃ (b : Fin 4) (t : Fin 8) (o : Fin 18432), j = ix3 b t o := ⟨j 0, j 1, j 2, eq_ix3 j⟩
  rw [val_main_v5_apply, linear_ix3]
  unfold linearEntry
  refine Finset.sum_congr rfl fun i _ => ?_
  have el : lidx_main_v5 (ix3 b t o) i = ix3 b t i := funext fun a => Fin.ext (by
    match a with
    | ⟨0, _⟩ => rfl
    | ⟨1, _⟩ => rfl
    | ⟨2, _⟩ => rfl)
  have er : ridx_main_v5 (ix3 b t o) i = ix2 o i := funext fun a => Fin.ext (by
    match a with
    | ⟨0, _⟩ => rfl
    | ⟨1, _⟩ => rfl)
  rw [el, er, scaled_weight w s o i]

end Cert.ReferenceIdeal.Dequant

end
-- ==== Proof.lean ====
/-
  A linear layer with a block-wise dequantized weight: `y = x · dequant(w, s)ᵀ`, for activations `x` ([4, 8, 7168]),
  weights `w` ([18432, 7168]) and scales `s` ([144, 56]: one scale per 128 × 128 block of the weight).

  The reference scales every weight by its block's scale and contracts with the activations over all 7168 columns at
  once. The kernel flattens the activations to 32 rows, repeats each scale row 128 times so that every weight row has
  its own row of 56 scales, and on a grid of 36 points handles 512 weight rows at a time: for each of the 56 blocks of
  128 columns it scales the block's weights by the block's scale column, contracts with the matching 128 columns of
  the activations, and adds the 56 contributions one after the other into a zero accumulator.

  Over the extended reals a change of float format is the identity and every contraction is the plain sum, so entry
  `(b, t, o)` of both results is

      Σ_{i < 7168}  x[b, t, i] · (w[o, i] · s[o / 128, i / 128]),

  the kernel's as 56 sums of 128 terms added in order, the reference's as one sum. Addition of extended reals is
  commutative and associative, so the two are equal; the factors of each term stand in the same order and grouping
  on both sides, nothing is distributed over a sum, and the finiteness of the inputs is never used.

  `Spec` states the function, `RefResult` that the reference computes it, `BlockProduct`, `BlockFold` and
  `TilePayload` what the kernel body stores at one grid point, `OutputArray` that the 36 stored tiles make up the
  output array, `HostGlue` the reshapes around the call, `KernelRun` the kernel program's run.
-/
import proofs.«118256_j48335561949661_2_alg».proof.Defs
import proofs.«118256_j48335561949661_2_alg».proof.Proof.Gen.Kernel
import proofs.«118256_j48335561949661_2_alg».proof.Proof.Gen.Kernel.Skeleton
import proofs.«118256_j48335561949661_2_alg».proof.Proof.Gen.Kernel.Launch
import proofs.«118256_j48335561949661_2_alg».proof.Proof.Gen.Kernel.Points
import proofs.«118256_j48335561949661_2_alg».proof.Proof.Gen.Kernel.Frame
import proofs.«118256_j48335561949661_2_alg».proof.Proof.Gen.KernelIdeal
import proofs.«118256_j48335561949661_2_alg».proof.Proof.Gen.KernelIdeal.Skeleton
import proofs.«118256_j48335561949661_2_alg».proof.Proof.Gen.KernelIdeal.Launch
import proofs.«118256_j48335561949661_2_alg».proof.Proof.Gen.KernelIdeal.Points
import proofs.«118256_j48335561949661_2_alg».proof.Proof.Gen.KernelIdeal.Frame
import proofs.«118256_j48335561949661_2_alg».proof.Proof.Gen.ReferenceIdeal
import proofs.«118256_j48335561949661_2_alg».proof.Proof.Gen.Pre_finite_inputs
import proofs.«118256_j48335561949661_2_alg».proof.Proof.Gen.ReferenceIdeal.Run
import proofs.«118256_j48335561949661_2_alg».proof.Proof.Gen.ReferenceIdeal.Read
import proofs.«118256_j48335561949661_2_alg».proof.Proof.KernelRun
import proofs.«118256_j48335561949661_2_alg».proof.Proof.RefResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end with the dequantized linear map of the arguments they agree on. -/
theorem algebraic : Cert.algebraic_KernelIdeal_ReferenceIdeal := by
  intro m ρ m' ρ' _ hagree
  refine ⟨_, Cert.KernelIdeal.Dequant.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Dequant.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
